-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S512x2048 : Shape := ⟨2, ![512, 2048]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x2048.size a
  hwx0_1 : ∀ i : grid0.Coords, EltTy.bits .f32 = 32 ∨ (Rect.block (s := S4096x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x2048.size a
  hwx0_4 : ∀ i : grid0.Coords, EltTy.bits .f32 = 32 ∨ (Rect.block (s := S4096x2048) S256x512.size (cc0_transform_4 i) (hinb0_4 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The mathematics both programs compute, stated once and free of either program's text.

  For `x : [4096, 2048]`, a weight `w : [2048, 2048]` stored output-major (row `c` of `w` holds the coefficients
  of output column `c`) and a bias `b : [2048]`, the residual linear layer is

      out[r, c] = (x[r, c] + ∑ k < 2048, x[r, k] · w[c, k]) + b[c]

  over the extended reals. Only sums and products of the entries occur, in this grouping, so no law that needs
  finiteness is ever used: the two programs compute this very expression, entry by entry, and differ only in how
  they cut the output into blocks.
-/
import Idealize.ShloMosaic.PureOps.Ideal
import Idealize.ShloMosaic.Lib.ValueIdx

noncomputable section

namespace Cert.Spec

open Idealize.ShloMosaic Idealize.ShloMosaic.ValueIdx

/-- The residual linear layer `x + x·wᵀ + b`, entry by entry: entry `(r, c)` is `x[r, c]` plus the dot product of row
    `r` of `x` with row `c` of `w`, plus `b[c]`. -/
def residualLinear (x : (⟨2, ![4096, 2048]⟩ : Shape).Idx → EReal) (w : (⟨2, ![2048, 2048]⟩ : Shape).Idx → EReal)
    (b : (⟨1, ![2048]⟩ : Shape).Idx → EReal) : (⟨2, ![4096, 2048]⟩ : Shape).Idx → EReal :=
  fun i => (x i + ∑ k : Fin 2048, x (ix2 (i 0 : Fin 4096) k) * w (ix2 (i 1 : Fin 2048) k)) + b (ix1 (i 1 : Fin 2048))

/-- The same at an index given by its coordinates. -/
theorem residualLinear_ix2 (x : (⟨2, ![4096, 2048]⟩ : Shape).Idx → EReal) (w : (⟨2, ![2048, 2048]⟩ : Shape).Idx → EReal)
    (b : (⟨1, ![2048]⟩ : Shape).Idx → EReal) (r : Fin 4096) (c : Fin 2048) :
    residualLinear x w b (ix2 r c) = (x (ix2 r c) + ∑ k : Fin 2048, x (ix2 r k) * w (ix2 c k)) + b (ix1 c) := rfl

end Cert.Spec

end
-- ==== Proof.KernelEntry.lean ====
/-
  The kernel body's stored value, read at one index.

  The body adds three things: the block of `x` it loaded, the product of that block with the weight matrix (both
  contracted along their second axis, so entry `(p, q)` is the dot product of row `p` of the block with row `q` of the
  weights, accumulated from zero), and the one-row bias laid along every row. Read at `(p, q)` this is
  `(x[p, q] + ∑ k, x[p, k] · w[q, k]) + b[0, q]`.
-/
import proofs.«135208_g2000205376503332_pallasbulk_940_18_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.Layer

open Cert.KernelIdeal Idealize.ShloMosaic Idealize.ShloMosaic.ValueIdx

/-! ## The operand coordinates of the product: which entry of each operand meets contraction position `k` -/

/-- The left operand's row is the result's row. -/
theorem lhs_row (i : S512x2048.Idx) (k : dot_S512x2048_S2048x2048_S512x2048_1_1_0_0_n_n.contr.Idx) :
    (dot_S512x2048_S2048x2048_S512x2048_1_1_0_0_n_n.lhsIdx i k 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

/-- The left operand's column is the contraction position. -/
theorem lhs_col (i : S512x2048.Idx) (k : dot_S512x2048_S2048x2048_S512x2048_1_1_0_0_n_n.contr.Idx) :
    (dot_S512x2048_S2048x2048_S512x2048_1_1_0_0_n_n.lhsIdx i k 1).val = (k ⟨0, by decide⟩).val :=
  dot_S512x2048_S2048x2048_S512x2048_1_1_0_0_n_n.lhsIdx_val_of_single rfl i k

/-- The right operand's row is the result's column. -/
theorem rhs_row (i : S512x2048.Idx) (k : dot_S512x2048_S2048x2048_S512x2048_1_1_0_0_n_n.contr.Idx) :
    (dot_S512x2048_S2048x2048_S512x2048_1_1_0_0_n_n.rhsIdx i k 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

/-- The right operand's column is the contraction position. -/
theorem rhs_col (i : S512x2048.Idx) (k : dot_S512x2048_S2048x2048_S512x2048_1_1_0_0_n_n.contr.Idx) :
    (dot_S512x2048_S2048x2048_S512x2048_1_1_0_0_n_n.rhsIdx i k 1).val = (k ⟨0, by decide⟩).val :=
  dot_S512x2048_S2048x2048_S512x2048_1_1_0_0_n_n.rhsIdx_val_of_single rfl i k

/-! ## The product at an index -/

/-- The block times the weights, rows against rows, from a zero accumulator: entry `(p, q)` is the dot product of row
    `p` of the block with row `q` of the weights. -/
theorem matmul_rows_apply (x0 : FVec Ideal S512x2048 .f32) (x1 : FVec Ideal S2048x2048 .f32) (p : Fin 512) (q : Fin 2048) :
    matmul dot_S512x2048_S2048x2048_S512x2048_1_1_0_0_n_n none x0 x1 (constant S512x2048 .f32 0x00000000#32) (ix2 p q)
      = ∑ k : Fin 2048, x0 (ix2 p k) * x1 (ix2 q k) := by
  refine (Ideal.matmul_constant_zero_apply dot_S512x2048_S2048x2048_S512x2048_1_1_0_0_n_n none x0 x1 (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q)
      ((contrEquiv1 dot_S512x2048_S2048x2048_S512x2048_1_1_0_0_n_n 2048 rfl rfl).symm k) = ix2 p k :=
    funext fun a => Fin.ext (by
      match a with
      | ⟨0, _⟩ => exact lhs_row _ _
      | ⟨1, _⟩ => exact (lhs_col _ _).trans hk)
  have er : dot_S512x2048_S2048x2048_S512x2048_1_1_0_0_n_n.rhsIdx (ix2 p q)
      ((contrEquiv1 dot_S512x2048_S2048x2048_S512x2048_1_1_0_0_n_n 2048 rfl rfl).symm k) = ix2 q k :=
    funext fun a => Fin.ext (by
      match a with
      | ⟨0, _⟩ => exact rhs_row _ _
      | ⟨1, _⟩ => exact (rhs_col _ _).trans hk)
  rw [el, er]

/-! ## The stored value at an index -/

/-- What the body stores, at `(p, q)`: the block's entry plus the dot product of its row `p` with row `q` of the
    weights, plus the bias row's entry `q`. -/
theorem payload_apply (x0 : Vec Ideal S512x2048 .f32) (x1 : Vec Ideal S2048x2048 .f32) (x2 : Vec Ideal S1x2048 .f32)
    (p : Fin 512) (q : Fin 2048) :
    Gen.k0_pay1 x0 x1 x2 (ix2 p q)
      = (x0 (ix2 p q) + ∑ k : Fin 2048, x0 (ix2 p k) * x1 (ix2 q k)) + x2 (ix2 (0 : Fin 1) q) := by
  unfold Gen.k0_pay1
  refine (addf_apply _ _ _).trans ?_
  refine congrArg₂ (· + ·) ((addf_apply _ _ _).trans (congrArg (x0 (ix2 p q) + ·) (matmul_rows_apply x0 x1 p q))) ?_
  rw [shapeCast_self]
  exact broadcastTo_1b_ab_apply x2 _ p q

end Cert.KernelIdeal.Layer

end
-- ==== Proof.KernelLayer.lean ====
/-
  The kernel's run, read as one function of its arguments.

  The grid has eight points. Point `t` loads rows `512·t … 512·t + 511` of `x`, the whole weight matrix and the whole
  one-row bias (the bias array reshaped from `[2048]` to `[1, 2048]` before the grid starts), and writes back the same
  rows of the result. By the entry formula of the stored value, what point `t` writes is the same rows of the residual
  linear layer of the three arguments; the eight row blocks tile the result, so the result array ends as that layer.
-/
import proofs.«135208_g2000205376503332_pallasbulk_940_18_alg».proof.Proof.Gen.KernelIdeal.Value
import proofs.«135208_g2000205376503332_pallasbulk_940_18_alg».proof.Proof.Spec
import proofs.«135208_g2000205376503332_pallasbulk_940_18_alg».proof.Proof.KernelEntry
import Idealize.ShloMosaic.Lib.ValueLayout
import Idealize.ShloMosaic.Lib.Pipeline.Value
import Idealize.ShloMosaic.Lib.StableHlo.Run

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (residualLinear residualLinear_ix2)

variable (m : (ℓ : Loc nD τ sig) → Buf (Elt Ideal) ℓ) (ρ : Dev nD → PrngReg)

theorem hz : (![0, 0] : Fin 2 → Nat) = fun _ => 0 := funext fun a => by fin_cases a <;> rfl

/-! ## One block's stored value is the layer's, given what the three loaded blocks hold -/

/-- If row `p` of the loaded block of `x` is row `r` of `X`, the loaded weights are `W` and the loaded bias row is `B`,
    then the stored value at `(p, q)` is the layer of `X`, `W`, `B` at `(r, q)`. -/
theorem block_value (x0 : Vec Ideal S512x2048 .f32) (x1 : Vec Ideal S2048x2048 .f32) (x2 : Vec Ideal S1x2048 .f32)
    (X : S4096x2048.Idx → EReal) (W : S2048x2048.Idx → EReal) (B : S2048.Idx → EReal)
    (p : Fin 512) (q : Fin 2048) (r : Fin 4096)
    (h0 : ∀ k : Fin 2048, x0 (ix2 p k) = X (ix2 r k))
    (h1 : ∀ s k : Fin 2048, x1 (ix2 s k) = W (ix2 s k))
    (h2 : ∀ s : Fin 2048, x2 (ix2 (0 : Fin 1) s) = B (ix1 s)) :
    Gen.k0_pay1 x0 x1 x2 (ix2 p q) = residualLinear X W B (ix2 r q) := by
  rw [payload_apply, residualLinear_ix2, h0 q, h2 q]
  refine congrArg (· + B (ix1 q)) (congrArg (X (ix2 r q) + ·) (Finset.sum_congr rfl fun k _ => ?_))
  rw [h0 k, h1 q k]

/-! ## The index maps over the grid -/

/-- The block indices at point `t`: the windows of `x` and of the result are at row block `t`, the weights' and the
    bias's at their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What each window's block holds at a point -/

/-- The bias window's array is the bias argument with a unit axis in front: the reshape before the grid. -/
theorem bias_row (c : Dev nD) (u : Fin 1) (q : Fin 2048) :
    (V m c main_v0 : S1x2048.Idx → EReal) (ix2 u q) = m ((c : Thread nD τ).loc main_arg2) (ix1 q) := by
  have e : (V m c main_v0 : S1x2048.Idx → EReal)
      = shapeCast S1x2048 (m ((c : Thread nD τ).loc main_arg2)) shapeCasts_S2048_S1x2048 := by
    dsimp only [Gen.V, Gen.hostOps0]; after_results; rfl
  rw [e]
  exact shapeCast_a_1a_apply _ _ u q

/-- Row `p` of the block of `x` at point `t` is row `512·t + p` of `x`. -/
theorem xblock_apply (c : Dev nD) (t : Fin cfg0.N) (p : Fin 512) (k : Fin 2048) (r : Fin 4096)
    (hr : r.val = t.val * 512 + p.val) :
    (iblk m c 0 t : Vec Ideal S512x2048 .f32) (ix2 p k) = m ((c : Thread nD τ).loc main_arg0) (ix2 r k) := by
  obtain ⟨e0, e1, -⟩ := idx_facts t
  unfold Gen.iblk
  rw [View.read_apply]
  show V m c main_arg0 _ = _
  rw [Gen.V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The weights' block at any point is the whole weight matrix. -/
theorem wblock_apply (c : Dev nD) (t : Fin cfg0.N) (s k : Fin 2048) :
    (iblk m c 1 t : Vec Ideal S2048x2048 .f32) (ix2 s k) = m ((c : Thread nD τ).loc main_arg1) (ix2 s k) := by
  obtain ⟨-, -, e0, e1, -⟩ := idx_facts t
  unfold Gen.iblk
  rw [View.read_apply]
  show V m c main_arg1 _ = _
  rw [Gen.V_main_arg1]
  refine congrArg _ (funext fun a => Fin.ext ?_)
  match a with
  | ⟨0, _⟩ => show win0_1.index t (0 : Fin 2) * 2048 + 1 * s.val = s.val; omega
  | ⟨1, _⟩ => show win0_1.index t (1 : Fin 2) * 2048 + 1 * k.val = k.val; omega

/-- The bias's block at any point is the bias argument laid as one row. -/
theorem bblock_apply (c : Dev nD) (t : Fin cfg0.N) (s : Fin 2048) :
    (iblk m c 2 t : Vec Ideal S1x2048 .f32) (ix2 (0 : Fin 1) s) = m ((c : Thread nD τ).loc main_arg2) (ix1 s) := by
  obtain ⟨-, -, -, -, e0, e1, -⟩ := idx_facts t
  unfold Gen.iblk
  rw [View.read_apply]
  show (V m c main_v0 : S1x2048.Idx → EReal) _ = _
  refine Eq.trans (congrArg _ (funext fun a => Fin.ext ?_)) (bias_row m c (0 : Fin 1) s)
  match a with
  | ⟨0, _⟩ => show win0_2.index t (0 : Fin 2) * 1 + 1 * 0 = 0; omega
  | ⟨1, _⟩ => show win0_2.index t (1 : Fin 2) * 2048 + 1 * s.val = s.val; omega

/-! ## What a point writes back -/

/-- Point `t` writes back block `t` of the layer of the three arguments. -/
theorem flushed_eq (c : Dev nD) (t : Fin cfg0.N) :
    (dats m 0 c).flushed 3 t = ((cfg0.win 3).blk t).view.read (Elt Ideal)
      (residualLinear (m ((c : Thread nD τ).loc main_arg0)) (m ((c : Thread nD τ).loc main_arg1)) (m ((c : Thread nD τ).loc main_arg2))) := by
  rw [Value.flushed3]
  unfold Gen.out0_3
  rw [View.canon_unit_zero hz]
  simp only [View.ld_unit_zero (S := S512x2048) hz, View.ld_unit_zero (S := S2048x2048) hz, View.ld_unit_zero (S := S1x2048) hz]
  obtain ⟨-, -, -, -, -, -, e0, e1⟩ := idx_facts t
  have hN : cfg0.N = 8 := Gen.N_0
  have ht : t.val < 8 := hN ▸ t.isLt
  funext j
  obtain ⟨p, q, rfl⟩ : ∃ (p : Fin 512) (q : Fin 2048), j = ix2 p q := ⟨j 0, j 1, eq_ix2 j⟩
  have hp : p.val < 512 := p.isLt
  refine (block_value (iblk m c 0 t) (iblk m c 1 t) (iblk m c 2 t) _ _ _ p q ⟨t.val * 512 + p.val, by omega⟩
    (fun k => xblock_apply m c t p k _ rfl) (fun s k => wblock_apply m c t s k) (fun s => bblock_apply m c t s)).trans ?_
  rw [View.read_apply]
  refine congrArg _ (funext fun a => Fin.ext ?_)
  match a with
  | ⟨0, _⟩ => show t.val * 512 + p.val = win0_3.index t (0 : Fin 2) * 512 + 1 * p.val; omega
  | ⟨1, _⟩ => show q.val = win0_3.index t (1 : Fin 2) * 2048 + 1 * q.val; omega

/-! ## The eight row blocks tile the result -/

/-- An index of the result is in point `t`'s block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1).slice (win0_3.rect t)).set ↔ _
  rw [View.set_slice_whole, Rect.mem_set_unit]
  exact Iff.rfl

/-- Row `r` of the result is in the block of point `r / 512`, and every point writes back. -/
theorem cover (i : S4096x2048.Idx) :
    ∃ t : Fin cfg0.N, (cfg0.win 3).flush t = true ∧ i ∈ ((cfg0.win 3).blk t).view.set := by
  have hi0 : (i 0).val < 4096 := idx2_lt0 i
  have hi1 : (i 1).val < 2048 := idx2_lt1 i
  have hN : cfg0.N = 8 := Gen.N_0
  have ht : (i 0).val / 512 < cfg0.N := by rw [hN]; omega
  obtain ⟨-, -, -, -, -, -, e0, e1⟩ := idx_facts ⟨(i 0).val / 512, ht⟩
  refine ⟨⟨(i 0).val / 512, ht⟩, Gen.flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 2048 ≤ (i 1).val ∧ (i 1).val < win0_3.index ⟨(i 0).val / 512, ht⟩ (1 : Fin 2) * 2048 + 2048
    rw [e1]; omega

/-! ## The result array, and the run -/

/-- After the last point the result array is the layer of the three arguments. -/
theorem final (c : Dev nD) :
    (dats m 0 c).arrAt 3 cfg0.N = residualLinear (m ((c : Thread nD τ).loc main_arg0)) (m ((c : Thread nD τ).loc main_arg1)) (m ((c : Thread nD τ).loc main_arg2)) :=
  (dats m 0 c).arrAt_eq_of_cover 3 (residualLinear (m ((c : Thread nD τ).loc main_arg0)) (m ((c : Thread nD τ).loc main_arg1)) (m ((c : Thread nD τ).loc main_arg2)))
    (fun t _ => flushed_eq m c t) cover

/-- Every run of the program ends with the result array at the layer of the three arguments, and the arguments as
    they were. -/
theorem run : θ_run (defs (F := Ideal)) (onTc (τ := τ) (main (F := Ideal))) ⟨m, fun _ => 0, ρ⟩ fun r => ∀ c : Dev nD,
      r.2.mem ((c : Thread nD τ).loc main_v1) = Cert.Spec.residualLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Layer

end
-- ==== Proof.RefBody.lean ====
/-
  The reference's kernel body as a Hoare triple.

  One call of the column-tiled body reads four staging buffers — a [256, 2048] tile of rows of `x` (the matmul operand),
  the [256, 512] tile of `x` at the output's position (the residual), a [512, 2048] tile of rows of the weight and a
  [1, 512] tile of the bias — and overwrites the whole [256, 512] output buffer with one store. So, whatever the output
  buffer held, after the call the inputs are as they were and the output buffer holds the store's payload, the body's
  arithmetic applied to the four loaded tiles (`tileOut`).
-/
import proofs.«135208_g2000205376503332_pallasbulk_940_18_alg».proof.Proof.Gen.ReferenceIdeal.Launch
import proofs.«135208_g2000205376503332_pallasbulk_940_18_alg».proof.Proof.Gen.ReferenceIdeal.Skeleton
import proofs.«135208_g2000205376503332_pallasbulk_940_18_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Tile

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read, and the output written, whole -/

abbrev rRows : Rect S256x2048 := Rect.unit (s := S256x2048) ![0, 0] S256x2048.size inb_S256x2048_S256x2048_0_0
abbrev rTile : Rect S256x512 := Rect.unit (s := S256x512) ![0, 0] S256x512.size inb_S256x512_S256x512_0_0
abbrev rWeight : Rect S512x2048 := Rect.unit (s := S512x2048) ![0, 0] S512x2048.size inb_S512x2048_S512x2048_0_0
abbrev rBias : Rect S1x512 := Rect.unit (s := S1x512) ![0, 0] S1x512.size inb_S1x512_S1x512_0_0

/-- What the output buffer holds after the body, from the four input tiles: its one store, over the whole buffer, of the
    body's arithmetic on the loaded tiles. -/
def tileOut (xr : Vec F S256x2048 .f32) (xt : Vec F S256x512 .f32) (wt : Vec F S512x2048 .f32) (bt : Vec F S1x512 .f32) : Vec F S256x512 .f32 :=
  View.canon [⟨rTile, k0_pay1 (View.ld xr rRows) (View.ld wt rWeight) (View.ld xt rTile) (View.ld bt rBias)⟩]

/-- The one store covers the buffer. -/
theorem tile_cover (p0 : Vec F S256x512 .f32) (y : S256x512.Idx) :
    ∃ pc ∈ ([⟨rTile, p0⟩] : List (View.Piece (Elt F) S256x512 .f32)), y ∈ pc.1.set :=
  View.cover_of_tiled [⟨rTile, p0⟩] S256x512.size (by rfl) y

set_option maxHeartbeats 1000000 in
/-- The body on whole staging memrefs, the inputs' at contents `xr xt wt bt` and the output's at anything, runs to the
    continuation with the inputs as they were and the output at `tileOut` of them. -/
theorem sound_kernel (c : Dev nD) (E : Set ℕ) (i : grid0.Coords)
    (arg2 : Memref sig .tc .vmem S256x2048 .f32) (harg2 : arg2.IsWhole) (arg3 : Memref sig .tc .vmem S256x512 .f32) (harg3 : arg3.IsWhole)
    (arg4 : Memref sig .tc .vmem S512x2048 .f32) (harg4 : arg4.IsWhole) (arg5 : Memref sig .tc .vmem S1x512 .f32) (harg5 : arg5.IsWhole)
    (arg6 : Memref sig .tc .vmem S256x512 .f32) (harg6 : arg6.IsWhole)
    (xr : Vec F S256x2048 .f32) (xt : Vec F S256x512 .f32) (wt : Vec F S512x2048 .f32) (bt : Vec F S1x512 .f32) (K : PUnit → sProp 𝕄) :
    iprop(owns (c : Thread nD τ) arg2 fullShare xr ∗ owns (c : Thread nD τ) arg3 fullShare xt ∗ owns (c : Thread nD τ) arg4 fullShare wt
        ∗ owns (c : Thread nD τ) arg5 fullShare bt ∗ (∃ d, owns (c : Thread nD τ) arg6 fullShare d)
        ∗ (iprop(owns (c : Thread nD τ) arg2 fullShare xr ∗ owns (c : Thread nD τ) arg3 fullShare xt ∗ owns (c : Thread nD τ) arg4 fullShare wt
            ∗ owns (c : Thread nD τ) arg5 fullShare bt ∗ owns (c : Thread nD τ) arg6 fullShare (tileOut xr xt wt bt)) -∗ K ⟨⟩))
      ⊢ wp frame (wpE (defs₀ (F := F)) Variants.none c none) E (cc0__kernel_col_tiled i arg2 harg2 arg3 harg3 arg4 harg4 arg5 harg5 arg6 harg6) K := by
  simp only [cc0__kernel_col_tiled_eq_skeleton]; unfold cc0__kernel_col_tiled_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

end Cert.ReferenceIdeal.Tile

end
-- ==== Proof.RefFrame.lean ====
/-
  The reference's launch: every weakly fair execution of its @main terminates, and where it ends.

  The reference hands ONE array, `x`, to its kernel through two windows: whole rows of `x` (the matmul operand) and the
  tile of `x` at the output's position (the residual). Both windows only read it. The array's full ownership is
  therefore dealt in two halves, one to each window; the weight, the bias row and the output array are each held whole by
  their one window. With the ownership dealt so, each point of the 4 × 16 grid runs the body on the four input tiles
  — each tile the corresponding block of its array as @main's reshape of the bias left them — and writes the output tile
  back, so that at the end every array of the pipeline holds what the write-backs computed (`run_main`), the three
  argument arrays among them unchanged (`frame`).
-/
import proofs.«135208_g2000205376503332_pallasbulk_940_18_alg».proof.Proof.RefBody
import Idealize.ShloMosaic.Lib.Pipeline.Frame
import Idealize.ShloMosaic.Lib.Pipeline.Launch

set_option maxRecDepth 16384

noncomputable section

namespace Cert.ReferenceIdeal.Tile

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after @main's one host operation, the reshape of
    the bias to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes the bias row only: each argument array reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the region-entry contents and whose body leaves the block in
    place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The share of its array each input window holds: `x`, read through the row window and the residual window, in two
    halves; the others whole. -/
def shareOf : Fin 5 → PosShare TreeShare
  | ⟨0, _⟩ => fullShare.left
  | ⟨1, _⟩ => fullShare.right
  | ⟨2, _⟩ => fullShare
  | ⟨3, _⟩ => fullShare
  | ⟨4, _⟩ => fullShare

/-- The proof data on core `c`: the arrays as the region finds them; after the body at point `t` each input's buffer at
    its block and the output's at the body's result on the four input blocks; between points only the core's scoped
    buffers that are no staging buffer (there is none); nothing owed. The array `x`, read through windows 0 and 1, is held
    in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = tileOut (iblk m c 0 t) (iblk m c 1 t) (iblk m c 2 t) (iblk m c 3 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The array `x` dealt to its two windows -/

/-- The four buffers behind the five windows' arrays, each whole at any contents, with `x`'s ownership split in two
    halves. -/
theorem buffers_dealt (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      ⊢ iprop((((c : Thread nD τ).loc main_arg0) ↦{fullShare.left} Vc main_arg0) ∗ (((c : Thread nD τ).loc main_arg0) ↦{fullShare.right} Vc main_arg0)
        ∗ (((c : Thread nD τ).loc main_arg1) ↦{fullShare} Vc main_arg1) ∗ (((c : Thread nD τ).loc main_v0) ↦{fullShare} Vc main_v0)
        ∗ (((c : Thread nD τ).loc main_v1) ↦{fullShare} Vc main_v1)) := by
  unfold Pipeline.arrBufs
  have e : ∀ Φ : Ref sig .tc → sProp 𝕄, bigSep (Finset.univ.image (Pipeline.arrRef spec0)) Φ
      = iprop(Φ main_arg0 ∗ Φ main_arg1 ∗ Φ main_v0 ∗ Φ main_v1) :=
    fun Φ => bigSep_eq_bigSepL_of_eq [main_arg0, main_arg1, main_v0, main_v1] (by decide) (by decide) Φ
  rw [e]
  iintro ⟨Hx, Hw, Hb, Ho⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [Hw]; · iexact Hw
  isplitl [Hb]; · iexact Hb
  iexact Ho

/-- The share each window holds of its array. -/
theorem share_eq (c : Dev nD) (w : Fin cfg0.W) : (dats m 0 c).share w = shareOf w := by
  unfold Dat.share; fin_cases w <;> rfl

/-- The buffers behind the windows' arrays, each whole at the region-entry contents, make the pipeline's arrays at
    entry: `x` in halves between the row window and the residual window, the weight, the bias row and the output each to
    its one window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hF : (fun w => (dats m 0 c).arrAt w 0) = fun w => V m c (Pipeline.arrRef spec0 w) := funext fun w => A_eq m c w
  rw [hF]
  have hA : ∀ G : (w : Fin cfg0.W) → Buf (Elt F) ((cfg0.win w).arr.view.loc (c.tc : Thread nD τ)),
      (dats m 0 c).arrays G = bigSep Finset.univ fun w => (((c.tc : Thread nD τ).loc (Pipeline.arrRef spec0 w)) ↦{shareOf w} G w : sProp 𝕄) := fun G => by
    unfold Dat.arrays
    exact bigSep_congr fun w _ => by rw [(arr_whole0 w).set_eq_univ, share_eq]
  rw [hA, bigSep_W0]
  generalize V m c = Vc
  exact buffers_dealt c Vc

/-! ## The run -/

/-- At the compiled mesh, for any values, from any memory with zero counters: every weakly fair execution of @main
    terminates, and every final state has every array of the pipeline at what the write-backs computed from the proof
    data and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## The frame -/

/-- The three argument arrays end as launched: `x` and the weight are inputs of the pipeline, never written back, and
    reach the region as launched; the bias is no window's array, and the region leaves it alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

end Cert.ReferenceIdeal.Tile

end
-- ==== Proof.RefEntry.lean ====
/-
  One entry of what the reference's body stores, over the extended reals.

  The body multiplies a [256, 2048] tile of rows of `x` by a [512, 2048] tile of rows of the weight, contracting the
  second axis of both (so the product's entry `(p, q)` is the dot product of row `p` of the first with row `q` of the
  second), into a zero accumulator; adds the product to the residual tile; and adds the bias tile's one row along
  every row. So entry `(p, q)` of the stored tile is `(res[p, q] + ∑ k, rows[p, k] · wrows[q, k]) + bias[0, q]`.
-/
import proofs.«135208_g2000205376503332_pallasbulk_940_18_alg».proof.Proof.Gen.ReferenceIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.ReferenceIdeal.Entry

open Cert.ReferenceIdeal Cert.ReferenceIdeal.Gen Idealize.ShloMosaic Idealize.ShloMosaic.ValueIdx

/-- The product's dimension numbers: both operands contract their second axis. -/
abbrev tileDims : DotDims S256x2048 S512x2048 S256x512 := dot_S256x2048_S512x2048_S256x512_1_1_0_0_n_n

/-- The left operand is read at the output's row … -/
theorem lhs_row (i : S256x512.Idx) (k : tileDims.contr.Idx) : (tileDims.lhsIdx i k 0).val = (i 0).val := by
  unfold DotDims.lhsIdx
  rw [dif_neg (show ¬(0 : Fin S256x2048.rank) ∈ tileDims.lhsBatch by decide),
    dif_pos (show (0 : Fin S256x2048.rank) ∈ tileDims.lhsNonContracting by decide)]
  rfl
/-- … and the contraction position; -/
theorem lhs_col (i : S256x512.Idx) (k : tileDims.contr.Idx) : (tileDims.lhsIdx i k 1).val = (k ⟨0, by decide⟩).val :=
  tileDims.lhsIdx_val_of_single rfl i k
/-- the right operand at the output's COLUMN (its row index) … -/
theorem rhs_row (i : S256x512.Idx) (k : tileDims.contr.Idx) : (tileDims.rhsIdx i k 0).val = (i 1).val := by
  unfold DotDims.rhsIdx
  rw [dif_neg (show ¬(0 : Fin S512x2048.rank) ∈ tileDims.rhsBatch by decide),
    dif_pos (show (0 : Fin S512x2048.rank) ∈ tileDims.rhsNonContracting by decide)]
  rfl
/-- … and the contraction position. -/
theorem rhs_col (i : S256x512.Idx) (k : tileDims.contr.Idx) : (tileDims.rhsIdx i k 1).val = (k ⟨0, by decide⟩).val :=
  tileDims.rhsIdx_val_of_single rfl i k

/-- The tile product into a zero accumulator, at entry `(p, q)`: the dot product of row `p` of the left tile with row
    `q` of the right tile. -/
theorem tile_product (prec : Option ContractPrecision) (v0 : FVec Ideal S256x2048 .f32) (v1 : FVec Ideal S512x2048 .f32) (p : Fin 256) (q : Fin 512) :
    FloatOps.matmul tileDims prec v0 v1 (constant (F := Ideal) S256x512 .f32 0x00000000#32) (ix2 p q)
      = ∑ k : Fin 2048, v0 (ix2 p k) * v1 (ix2 q k) := by
  rw [Ideal.matmul_constant_zero_apply, ← Equiv.sum_comp (contrEquiv1 tileDims 2048 rfl rfl).symm]
  refine Finset.sum_congr rfl fun k _ => ?_
  have hk := contrEquiv1_symm_val tileDims 2048 rfl rfl k
  have el : tileDims.lhsIdx (ix2 p q) ((contrEquiv1 tileDims 2048 rfl rfl).symm k) = ix2 p k := funext fun a => Fin.ext (by
    match a with
    | ⟨0, _⟩ => exact lhs_row _ _
    | ⟨1, _⟩ => exact (lhs_col _ _).trans hk)
  have er : tileDims.rhsIdx (ix2 p q) ((contrEquiv1 tileDims 2048 rfl rfl).symm k) = ix2 q k := funext fun a => Fin.ext (by
    match a with
    | ⟨0, _⟩ => exact rhs_row _ _
    | ⟨1, _⟩ => exact (rhs_col _ _).trans hk)
  rw [el, er]

/-- Entry `(p, q)` of the stored tile. -/
theorem tile_entry (v0 : Vec Ideal S256x2048 .f32) (v1 : Vec Ideal S512x2048 .f32) (v3 : Vec Ideal S256x512 .f32) (v5 : Vec Ideal S1x512 .f32)
    (p : Fin 256) (q : Fin 512) :
    k0_pay1 v0 v1 v3 v5 (ix2 p q) = (v3 (ix2 p q) + ∑ k : Fin 2048, v0 (ix2 p k) * v1 (ix2 q k)) + v5 (ix2 (0 : Fin 1) q) := by
  unfold k0_pay1
  show (v3 (ix2 p q) + FloatOps.matmul tileDims (some .fp32) v0 v1 (constant (F := Ideal) S256x512 .f32 0x00000000#32) (ix2 p q))
      + broadcastTo S256x512 (shapeCast S1x512 v5 shapeCasts_S1x512_S1x512) broadcasts_S1x512_S256x512 (ix2 p q) = _
  rw [tile_product, shapeCast_self, broadcastTo_1b_ab_apply]

end Cert.ReferenceIdeal.Entry

end
-- ==== Proof.RefValue.lean ====
/-
  What the reference's output array holds after the run: the residual linear layer of the three argument arrays.

  Point `t` of the 4 × 16 grid has a column-tile index `j` and a row-tile index `i`; it writes back the [256, 512] tile
  of the output at tile position `(i, j)`. The row window hands the body rows `256 i …` of `x` (all 2048 columns), the
  residual window the tile of `x` at `(i, j)`, the weight window rows `512 j …` of the weight, the bias window columns
  `512 j …` of the bias row. So entry `(p, q)` of the written tile, which is entry `(r, s) = (256 i + p, 512 j + q)` of the
  output array, is `(x[r, s] + ∑ k, x[r, k] · w[s, k]) + b[s]`: the layer's entry. The 64 tiles cover the array, each
  entry lying in the tile at `(r / 256, s / 512)`.
-/
import proofs.«135208_g2000205376503332_pallasbulk_940_18_alg».proof.Proof.RefFrame
import proofs.«135208_g2000205376503332_pallasbulk_940_18_alg».proof.Proof.RefEntry
import proofs.«135208_g2000205376503332_pallasbulk_940_18_alg».proof.Proof.Spec
import Idealize.ShloMosaic.Lib.Pipeline.Value
import Idealize.ShloMosaic.Lib.ValueLayout
import Idealize.ShloMosaic.Lib.StableHlo.Run

set_option maxRecDepth 16384

noncomputable section

namespace Cert.ReferenceIdeal.Layer

open Cert.ReferenceIdeal Cert.ReferenceIdeal.Gen Cert.ReferenceIdeal.Tile Cert.ReferenceIdeal.Entry
open Idealize.ShloMosaic Idealize.ShloMosaic.TcCoe Idealize.SL.Sem Idealize.ShloMosaic.ValueIdx
open Idealize.ShloMosaic.Pipeline (Dat)
open Cert.Spec (residualLinear residualLinear_ix2)

variable (m : (ℓ : Loc nD τ sig) → Buf (Elt Ideal) ℓ) (ρ : Dev nD → PrngReg)

theorem origin : (![0, 0] : Fin 2 → Nat) = fun _ => 0 := funext fun a => by fin_cases a <;> rfl

/-! ## One tile's stored value is the layer's, given what the four loaded tiles hold -/

/-- If row `p` of the loaded rows of `x` is row `r` of `X`, the residual tile's entry `(p, q)` is `X[r, s]`, row `q` of the
    loaded weight rows is row `s` of `W` and the bias tile's entry `q` is `B[s]`, then the stored value at `(p, q)` is the
    layer of `X`, `W`, `B` at `(r, s)`. -/
theorem tile_value (v0 : Vec Ideal S256x2048 .f32) (v1 : Vec Ideal S512x2048 .f32) (v3 : Vec Ideal S256x512 .f32) (v5 : Vec Ideal S1x512 .f32)
    (X : S4096x2048.Idx → EReal) (W : S2048x2048.Idx → EReal) (B : S2048.Idx → EReal)
    (p : Fin 256) (q : Fin 512) (r : Fin 4096) (s : Fin 2048)
    (h0 : ∀ k : Fin 2048, v0 (ix2 p k) = X (ix2 r k))
    (h1 : ∀ k : Fin 2048, v1 (ix2 q k) = W (ix2 s k))
    (h3 : v3 (ix2 p q) = X (ix2 r s))
    (h5 : v5 (ix2 (0 : Fin 1) q) = B (ix1 s)) :
    k0_pay1 v0 v1 v3 v5 (ix2 p q) = residualLinear X W B (ix2 r s) := by
  rw [tile_entry, residualLinear_ix2, h3, h5]
  refine congrArg (· + B (ix1 s)) (congrArg (X (ix2 r s) + ·) (Finset.sum_congr rfl fun k _ => ?_))
  rw [h0 k, h1 k]

/-! ## The index maps over the grid -/

/-- The printed index maps, decided over the 64 points: the row window follows the output's row tile, the residual
    window the output's tile, the weight and bias windows the output's column tile; the tile indices stay in range. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = win0_4.index t (1 : Fin 2)
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every tile position is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## What each window's block holds at a point -/

/-- The bias row the region finds is @main's reshape of the bias: its entry `(0, s)` is `b[s]`. -/
theorem bias_row (c : Dev nD) (u : Fin 1) (s : Fin 2048) :
    (V m c main_v0 : S1x2048.Idx → EReal) (ix2 u s) = m ((c : Thread nD τ).loc main_arg2) (ix1 s) := by
  have e : (V m c main_v0 : S1x2048.Idx → EReal) = shapeCast S1x2048 (m ((c : Thread nD τ).loc main_arg2)) shapeCasts_S2048_S1x2048 := by
    dsimp only [V, hostOps0]; after_results; rfl
  rw [e]
  exact shapeCast_a_1a_apply _ _ u s

/-- Row `p` of the row window's block at point `t` is row `256 i + p` of `x`, `i` the output's row-tile index there. -/
theorem rows_apply (c : Dev nD) (t : Fin cfg0.N) (p : Fin 256) (k : Fin 2048) (r : Fin 4096)
    (hr : r.val = win0_4.index t (0 : Fin 2) * 256 + p.val) :
    (iblk m c 0 t : Vec Ideal S256x2048 .f32) (ix2 p k) = m ((c : Thread nD τ).loc main_arg0) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- Entry `(p, q)` of the residual window's block is entry `(256 i + p, 512 j + q)` of `x`. -/
theorem res_apply (c : Dev nD) (t : Fin cfg0.N) (p : Fin 256) (q : Fin 512) (r : Fin 4096) (s : Fin 2048)
    (hr : r.val = win0_4.index t (0 : Fin 2) * 256 + p.val) (hs : s.val = win0_4.index t (1 : Fin 2) * 512 + q.val) :
    (iblk m c 1 t : Vec Ideal S256x512 .f32) (ix2 p q) = m ((c : Thread nD τ).loc main_arg0) (ix2 r s) := by
  obtain ⟨-, -, e0, e1, -⟩ := idx_facts t
  unfold iblk
  rw [View.read_apply]
  show V m c main_arg0 _ = _
  rw [V_main_arg0]
  refine congrArg _ (funext fun a => Fin.ext ?_)
  match a with
  | ⟨0, _⟩ => show win0_1.index t (0 : Fin 2) * 256 + 1 * p.val = r.val; omega
  | ⟨1, _⟩ => show win0_1.index t (1 : Fin 2) * 512 + 1 * q.val = s.val; omega

/-- Row `q` of the weight window's block is row `512 j + q` of the weight. -/
theorem wrows_apply (c : Dev nD) (t : Fin cfg0.N) (q : Fin 512) (k : Fin 2048) (s : Fin 2048)
    (hs : s.val = win0_4.index t (1 : Fin 2) * 512 + q.val) :
    (iblk m c 2 t : Vec Ideal S512x2048 .f32) (ix2 q k) = m ((c : Thread nD τ).loc main_arg1) (ix2 s k) := by
  obtain ⟨-, -, -, -, e0, e1, -⟩ := idx_facts t
  unfold iblk
  rw [View.read_apply]
  show V m c main_arg1 _ = _
  rw [V_main_arg1]
  refine congrArg _ (funext fun a => Fin.ext ?_)
  match a with
  | ⟨0, _⟩ => show win0_2.index t (0 : Fin 2) * 512 + 1 * q.val = s.val; omega
  | ⟨1, _⟩ => show win0_2.index t (1 : Fin 2) * 2048 + 1 * k.val = k.val; omega

/-- Entry `q` of the bias window's block is `b[512 j + q]`. -/
theorem btile_apply (c : Dev nD) (t : Fin cfg0.N) (q : Fin 512) (s : Fin 2048)
    (hs : s.val = win0_4.index t (1 : Fin 2) * 512 + q.val) :
    (iblk m c 3 t : Vec Ideal S1x512 .f32) (ix2 (0 : Fin 1) q) = m ((c : Thread nD τ).loc main_arg2) (ix1 s) := by
  obtain ⟨-, -, -, -, -, -, e0, e1, -⟩ := idx_facts t
  unfold iblk
  rw [View.read_apply]
  show (V m c main_v0 : S1x2048.Idx → EReal) _ = _
  refine Eq.trans (congrArg _ (funext fun a => Fin.ext ?_)) (bias_row m c (0 : Fin 1) s)
  match a with
  | ⟨0, _⟩ => show win0_3.index t (0 : Fin 2) * 1 + 1 * 0 = 0; omega
  | ⟨1, _⟩ => show win0_3.index t (1 : Fin 2) * 512 + 1 * q.val = s.val; omega

/-! ## What a point writes back -/

/-- Point `t` writes back tile `t` of the layer of the three arguments. -/
theorem flushed_eq (c : Dev nD) (t : Fin cfg0.N) :
    (dats m 0 c).flushed 4 t = ((cfg0.win 4).blk t).view.read (Elt Ideal)
      (residualLinear (m ((c : Thread nD τ).loc main_arg0)) (m ((c : Thread nD τ).loc main_arg1)) (m ((c : Thread nD τ).loc main_arg2))) := by
  show (cfg0.win 4).cut (grid0.coords t) ((dats m 0 c).after 4 t) = _
  rw [after4]
  unfold tileOut
  rw [View.canon_unit_zero origin]
  simp only [View.ld_unit_zero (S := S256x2048) origin, View.ld_unit_zero (S := S256x512) origin,
    View.ld_unit_zero (S := S512x2048) origin, View.ld_unit_zero (S := S1x512) origin]
  obtain ⟨-, -, -, -, -, -, -, -, ha, hb⟩ := idx_facts t
  funext j
  obtain ⟨p, q, rfl⟩ : ∃ (p : Fin 256) (q : Fin 512), j = ix2 p q := ⟨j 0, j 1, eq_ix2 j⟩
  have hp : p.val < 256 := p.isLt
  have hq : q.val < 512 := q.isLt
  refine (tile_value (iblk m c 0 t) (iblk m c 2 t) (iblk m c 1 t) (iblk m c 3 t) _ _ _ p q
    ⟨win0_4.index t (0 : Fin 2) * 256 + p.val, by omega⟩ ⟨win0_4.index t (1 : Fin 2) * 512 + q.val, by omega⟩
    (fun k => rows_apply m c t p k _ rfl) (fun k => wrows_apply m c t q k _ rfl) (res_apply m c t p q _ _ rfl rfl)
    (btile_apply m c t q _ rfl)).trans ?_
  rw [View.read_apply]
  refine congrArg _ (funext fun a => Fin.ext ?_)
  match a with
  | ⟨0, _⟩ => show win0_4.index t (0 : Fin 2) * 256 + p.val = win0_4.index t (0 : Fin 2) * 256 + 1 * p.val; omega
  | ⟨1, _⟩ => show win0_4.index t (1 : Fin 2) * 512 + q.val = win0_4.index t (1 : Fin 2) * 512 + 1 * q.val; omega

/-! ## The 64 tiles cover the output -/

/-- An index of the output is in point `t`'s tile iff each coordinate is in the tile's range on its axis. -/
theorem mem_blk (t : Fin cfg0.N) (i : S4096x2048.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v1).slice (win0_4.rect t)).set ↔ _
  rw [View.set_slice_whole, Rect.mem_set_unit]
  exact Iff.rfl

/-- Entry `(r, s)` lies in the tile at position `(r / 256, s / 512)`, and every point writes back. -/
theorem cover (i : S4096x2048.Idx) :
    ∃ t : Fin cfg0.N, (cfg0.win 4).flush t = true ∧ i ∈ ((cfg0.win 4).blk t).view.set := by
  have hi0 : (i 0).val < 4096 := idx2_lt0 i
  have hi1 : (i 1).val < 2048 := idx2_lt1 i
  obtain ⟨t, ht⟩ := idx_onto ⟨(i 0).val / 256, by omega⟩ ⟨(i 1).val / 512, by omega⟩
  have q0 : win0_4.index t (0 : Fin 2) = (i 0).val / 256 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 512 ≤ (i 1).val ∧ (i 1).val < win0_4.index t (1 : Fin 2) * 512 + 512
    omega

/-! ## The output array, and the run -/

/-- After the last point the output array is the layer of the three arguments. -/
theorem final (c : Dev nD) :
    (dats m 0 c).arrAt 4 cfg0.N = residualLinear (m ((c : Thread nD τ).loc main_arg0)) (m ((c : Thread nD τ).loc main_arg1)) (m ((c : Thread nD τ).loc main_arg2)) :=
  (dats m 0 c).arrAt_eq_of_cover 4 (residualLinear (m ((c : Thread nD τ).loc main_arg0)) (m ((c : Thread nD τ).loc main_arg1)) (m ((c : Thread nD τ).loc main_arg2)))
    (fun t _ => flushed_eq m c t) cover

/-- Every run of the reference ends with the output array at the layer of the three arguments, and the arguments as
    they were. -/
theorem run : θ_run (defs (F := Ideal)) (onTc (τ := τ) (main (F := Ideal))) ⟨m, fun _ => 0, ρ⟩ fun r => ∀ c : Dev nD,
      r.2.mem ((c : Thread nD τ).loc main_v1) = Cert.Spec.residualLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

end Cert.ReferenceIdeal.Layer

end
-- ==== Proof.lean ====
/-
  The residual linear layer `out = x + x·wᵀ + b` (x : [4096, 2048], w : [2048, 2048] stored output-major, b : [2048]),
  computed two ways, both over the extended reals at the ideal instance:

  * the kernel cuts the output into eight blocks of 512 whole rows, keeps the whole weight and the bias resident, and
    at each block stores `(x_blk + x_blk · wᵀ) + b`;
  * the reference cuts the output into 16 × 4 tiles of 256 × 512, reads the rows of `x` twice (as the matmul operand and
    as the residual tile), a 512-row tile of the weight and a 512-entry tile of the bias, and stores
    `(x_tile + x_rows · w_tileᵀ) + b_tile`.

  Entry `(r, c)` of either result is `(x[r, c] + ∑ k < 2048, x[r, k] · w[c, k]) + b[c]` — the same sum of the same
  products in the same grouping — so the two agree entry by entry with no appeal to finiteness; the precondition is not
  used. (A product into a zero accumulator is the plain sum, and the requested matmul precision has no meaning over
  exact arithmetic.) The specification is `Cert.Spec.residualLinear`; `Proof/KernelLayer.lean` shows the kernel's
  output array ends at it, `Proof/RefValue.lean` the reference's.

  Frames: the two kernel programs' are the generated ones. The reference hands `x` to its pallas_call through two
  windows, so its launch deals that array's ownership in halves between them (`Proof/RefFrame.lean`), its body's triple
  being `Proof/RefBody.lean`. The idealization rewrote nothing, so `preserves` is trivial.
-/
import proofs.«135208_g2000205376503332_pallasbulk_940_18_alg».proof.Defs
import proofs.«135208_g2000205376503332_pallasbulk_940_18_alg».proof.Proof.Gen.Kernel
import proofs.«135208_g2000205376503332_pallasbulk_940_18_alg».proof.Proof.Gen.Kernel.Frame
import proofs.«135208_g2000205376503332_pallasbulk_940_18_alg».proof.Proof.Gen.KernelIdeal
import proofs.«135208_g2000205376503332_pallasbulk_940_18_alg».proof.Proof.Gen.KernelIdeal.Frame
import proofs.«135208_g2000205376503332_pallasbulk_940_18_alg».proof.Proof.Gen.ReferenceIdeal
import proofs.«135208_g2000205376503332_pallasbulk_940_18_alg».proof.Proof.Gen.Pre_finite_inputs
import proofs.«135208_g2000205376503332_pallasbulk_940_18_alg».proof.Proof.KernelLayer
import proofs.«135208_g2000205376503332_pallasbulk_940_18_alg».proof.Proof.RefFrame
import proofs.«135208_g2000205376503332_pallasbulk_940_18_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Tile.frame m ρ

/-- The idealization is the kernel's own text read over the extended reals: nothing to preserve. -/
theorem preserves : Cert.preserves_Kernel_KernelIdeal := trivial

/-- Both programs end with their output array at the residual linear layer of arguments that agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Layer.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
